-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1024 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x128x512 .f32) (main_arg1 : FVec F S8x128x512 .f32) (main_arg2 : FVec F S1024x1024 .f32) (main_arg3 : FVec F S1024 .f32) (main_arg4 : FVec F S1x1024 .f32) (main_arg5 : FVec F S1 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x128x512 .f32 := Host.absf main_arg1
  let main_cst_0 : FVec F S_ .f32 := constant S_ .f32 0x7F800000#32
  let main_v5 : FVec F S8x128x512 .f32 := broadcastInDim S8x128x512 ![] bcast_S_S8x128x512 main_cst_0
  let main_v6 : IVec S8x128x512 1 := cmpf .olt main_v4 main_v5
  let main_c_1 : IVec S_ 1 := constantI S_ 1 1#1
  let main_v7 : IVec S_ 1 := (fun x v => Host.reduce IntOp.andi x v reducesTo_S8x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x128x512 : Shape := ⟨3, ![8, 128, 512]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S512x1024 : Shape := ⟨2, ![512, 1024]⟩
abbrev S1024x1 : Shape := ⟨2, ![1024, 1]⟩
abbrev S8x128x128 : Shape := ⟨3, ![8, 128, 128]⟩
abbrev S1x128x512 : Shape := ⟨3, ![1, 128, 512]⟩
abbrev S512x512 : Shape := ⟨2, ![512, 512]⟩
abbrev S1x512 : Shape := ⟨2, ![1, 512]⟩
abbrev S512x1 : Shape := ⟨2, ![512, 1]⟩
abbrev S1x128x128 : Shape := ⟨3, ![1, 128, 128]⟩
abbrev S128x128 : Shape := ⟨2, ![128, 128]⟩
abbrev S128x512 : Shape := ⟨2, ![128, 512]⟩
abbrev S32x512 : Shape := ⟨2, ![32, 512]⟩
abbrev S128x1x512 : Shape := ⟨3, ![128, 1, 512]⟩
abbrev S1x32x512 : Shape := ⟨3, ![1, 32, 512]⟩
abbrev S128x32x512 : Shape := ⟨3, ![128, 32, 512]⟩
abbrev S4096x512 : Shape := ⟨2, ![4096, 512]⟩
abbrev S4096x1 : Shape := ⟨2, ![4096, 1]⟩
abbrev S128x32 : Shape := ⟨2, ![128, 32]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S1024x512, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1x1024, .f32⟩
  | .hbm, ⟨13, _⟩ => ⟨S1024x1, .f32⟩
  | .hbm, ⟨14, _⟩ => ⟨S1024x1, .bf16⟩
  | .hbm, ⟨15, _⟩ => ⟨S8x128x512, .bf16⟩
  | .hbm, ⟨16, _⟩ => ⟨S8x128x512, .bf16⟩
  | .hbm, ⟨17, _⟩ => ⟨S8x128x128, .f32⟩
  | .hbm, ⟨18, _⟩ => ⟨S_, .f32⟩
  | .hbm, ⟨19, _⟩ => ⟨S8x128x128, .f32⟩
  | .hbm, ⟨20, _⟩ => ⟨S8x128x128, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x1, .bf16⟩
  | .local _ .vmem, ⟨11, _⟩ => ⟨S512x1, .bf16⟩
  | .local _ .vmem, ⟨12, _⟩ => ⟨S1x128x128, .f32⟩
  | .local _ .vmem, ⟨13, _⟩ => ⟨S1x128x128, .f32⟩
  | .local _ .vmem, ⟨14, _⟩ => ⟨S128x128, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v85 : BitVec 1 := Scalar.cmpi .eq arg1 c1_i32
  let v86 : BitVec 32 := Scalar.extui v85
  let c0_i32_36 : BitVec 32 := 0#32
  let v87 : BitVec 1 := Scalar.cmpi .ne v86 c0_i32_36
  v87

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S1024x1024_S1024x512_0_0 : S1024x1024.Slices ![0, 0] S1024x512
  slices_S1024x1024_S1024x512_0_512 : S1024x1024.Slices ![0, 512] S1024x512
  transposes_S1024x512_S512x1024_1_0 : S1024x512.Transposes [1, 0] S512x1024
  bitsLt_bf16_f32 : FTy.bits .bf16 < FTy.bits .f32
  shapeCasts_S1024_S1x1024 : S1024.ShapeCasts S1x1024
  transposes_S1x1024_S1024x1_1_0 : S1x1024.Transposes [1, 0] S1024x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  slices_S128x512_o0_0_S32x512 : S128x512.Slices ![0, 0] S32x512
  shapeCasts_S128x512_S128x1x512 : S128x512.ShapeCasts S128x1x512
  shapeCasts_S32x512_S1x32x512 : S32x512.ShapeCasts S1x32x512
  broadcasts_S128x1x512_S128x32x512 : S128x1x512.Broadcasts S128x32x512
  broadcasts_S1x32x512_S128x32x512 : S1x32x512.Broadcasts S128x32x512
  shapeCasts_S128x32x512_S4096x512 : S128x32x512.ShapeCasts S4096x512
  shapeCasts_S4096x1_S128x32 : S4096x1.ShapeCasts S128x32
  inb_S128x128_S128x32_0_0 : ∀ a, (![0, 0] : Fin 2 → Nat) a + S128x32.size a ≤ S128x128.size a
  h_S128x32 : 0 < S128x32.numel
  shapeCasts_S128x32_S128x32 : S128x32.ShapeCasts S128x32
  slices_S128x512_o32_0_S32x512 : S128x512.Slices ![32, 0] S32x512
  inb_S128x128_S128x32_0_32 : ∀ a, (![0, 32] : Fin 2 → Nat) a + S128x32.size a ≤ S128x128.size a
  slices_S128x512_o64_0_S32x512 : S128x512.Slices ![64, 0] S32x512
  inb_S128x128_S128x32_0_64 : ∀ a, (![0, 64] : Fin 2 → Nat) a + S128x32.size a ≤ S128x128.size a
  slices_S128x512_o96_0_S32x512 : S128x512.Slices ![96, 0] S32x512
  inb_S128x128_S128x32_0_96 : ∀ a, (![0, 96] : Fin 2 → Nat) a + S128x32.size a ≤ S128x128.size a
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S1_S_ : S1.ShapeCasts S_
  bcast_S_S8x128x128 : S_.BroadcastsInDim S8x128x128 (![] : Fin 0 → Fin S8x128x128.rank)
  dot_S128x512_S512x512_S128x512_1_0_0_1_n_n_wf : DotDims.WF S128x512 S512x512 S128x512 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .bf16 = 32 ∨ (Rect.block (s := S8x128x512) S1x128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x128x512.size a
  hwx0_1 : ∀ i : grid0.Coords, EltTy.bits .bf16 = 32 ∨ (Rect.block (s := S8x128x512) S1x128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x1024.size a
  hwx0_2 : ∀ i : grid0.Coords, EltTy.bits .bf16 = 32 ∨ (Rect.block (s := S512x1024) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x1024.size a
  hwx0_3 : ∀ i : grid0.Coords, EltTy.bits .bf16 = 32 ∨ (Rect.block (s := S512x1024) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x1024.size a
  hwx0_4 : ∀ i : grid0.Coords, EltTy.bits .f32 = 32 ∨ (Rect.block (s := S1x1024) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S1024x1.size a
  hwx0_5 : ∀ i : grid0.Coords, EltTy.bits .bf16 = 32 ∨ (Rect.block (s := S1024x1) S512x1.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S8x128x128.size a
  hwx0_6 : ∀ i : grid0.Coords, EltTy.bits .f32 = 32 ∨ (Rect.block (s := S8x128x128) S1x128x128.size (cc0_transform_6 i) (hinb0_6 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_v9) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x128x512 : Shape := ⟨3, ![8, 128, 512]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S8x128x1024 : Shape := ⟨3, ![8, 128, 1024]⟩
abbrev S8x128x1x1024 : Shape := ⟨4, ![8, 128, 1, 1024]⟩
abbrev S8x1x128x1024 : Shape := ⟨4, ![8, 1, 128, 1024]⟩
abbrev S8x128x128x1024 : Shape := ⟨4, ![8, 128, 128, 1024]⟩
abbrev S1x1x1x1024 : Shape := ⟨4, ![1, 1, 1, 1024]⟩
abbrev S_ : Shape := ⟨0, ![]⟩
abbrev S8x128x128x1 : Shape := ⟨4, ![8, 128, 128, 1]⟩
abbrev S1x1x1x1 : Shape := ⟨4, ![1, 1, 1, 1]⟩
abbrev S8x128x128 : Shape := ⟨3, ![8, 128, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S1024x512, .f32⟩
  | .hbm, ⟨7, _⟩ => ⟨S1024x512, .f32⟩
  | .hbm, ⟨8, _⟩ => ⟨S8x128x1024, .f32⟩
  | .hbm, ⟨9, _⟩ => ⟨S8x128x1024, .f32⟩
  | .hbm, ⟨10, _⟩ => ⟨S8x128x1x1024, .f32⟩
  | .hbm, ⟨11, _⟩ => ⟨S8x1x128x1024, .f32⟩
  | .hbm, ⟨12, _⟩ => ⟨S8x128x128x1024, .f32⟩
  | .hbm, ⟨13, _⟩ => ⟨S8x128x128x1024, .f32⟩
  | .hbm, ⟨14, _⟩ => ⟨S8x128x128x1024, .f32⟩
  | .hbm, ⟨15, _⟩ => ⟨S1x1x1x1024, .f32⟩
  | .hbm, ⟨16, _⟩ => ⟨S8x128x128x1024, .f32⟩
  | .hbm, ⟨17, _⟩ => ⟨S8x128x128x1024, .f32⟩
  | .hbm, ⟨18, _⟩ => ⟨S_, .f32⟩
  | .hbm, ⟨19, _⟩ => ⟨S8x128x128x1024, .f32⟩
  | .hbm, ⟨20, _⟩ => ⟨S8x128x128x1024, .f32⟩
  | .hbm, ⟨21, _⟩ => ⟨S8x128x128x1, .f32⟩
  | .hbm, ⟨22, _⟩ => ⟨S1x1x1x1, .f32⟩
  | .hbm, ⟨23, _⟩ => ⟨S8x128x128x1, .f32⟩
  | .hbm, ⟨24, _⟩ => ⟨S8x128x128x1, .f32⟩
  | .hbm, ⟨25, _⟩ => ⟨S8x128x128, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S8x128x1024_S8x128x1x1024_0_1_3 : S8x128x1024.BroadcastsInDim S8x128x1x1024 (![0, 1, 3] : Fin 3 → Fin S8x128x1x1024.rank)
  bcast_S8x128x1024_S8x1x128x1024_0_2_3 : S8x128x1024.BroadcastsInDim S8x1x128x1024 (![0, 2, 3] : Fin 3 → Fin S8x1x128x1024.rank)
  bcast_S8x128x1x1024_S8x128x128x1024_0_1_2_3 : S8x128x1x1024.BroadcastsInDim S8x128x128x1024 (![0, 1, 2, 3] : Fin 4 → Fin S8x128x128x1024.rank)
  bcast_S8x1x128x1024_S8x128x128x1024_0_1_2_3 : S8x1x128x1024.BroadcastsInDim S8x128x128x1024 (![0, 1, 2, 3] : Fin 4 → Fin S8x128x128x1024.rank)
  bcast_S1024_S1x1x1x1024_3 : S1024.BroadcastsInDim S1x1x1x1024 (![3] : Fin 1 → Fin S1x1x1x1024.rank)
  bcast_S1x1x1x1024_S8x128x128x1024_0_1_2_3 : S1x1x1x1024.BroadcastsInDim S8x128x128x1024 (![0, 1, 2, 3] : Fin 4 → Fin S8x128x128x1024.rank)
  bcast_S_S8x128x128x1024 : S_.BroadcastsInDim S8x128x128x1024 (![] : Fin 0 → Fin S8x128x128x1024.rank)
  bcast_S1_S1x1x1x1_3 : S1.BroadcastsInDim S1x1x1x1 (![3] : Fin 1 → Fin S1x1x1x1.rank)
  bcast_S1x1x1x1_S8x128x128x1_0_1_2_3 : S1x1x1x1.BroadcastsInDim S8x128x128x1 (![0, 1, 2, 3] : Fin 4 → Fin S8x128x128x1.rank)
  shapeCasts_S8x128x128x1_S8x128x128 : S8x128x128x1.ShapeCasts S8x128x128
  dot_S8x128x512_S1024x512_S8x128x1024_2_1_01_0_n_n_wf : DotDims.WF S8x128x512 S1024x512 S8x128x1024 [2] [1] [0, 1] [0] [] []
  dot_S8x128x128x1024_S1x1024_S8x128x128x1_3_1_012_0_n_n_wf : DotDims.WF S8x128x128x1024 S1x1024 S8x128x128x1 [3] [1] [0, 1, 2] [0] [] []

variable [Facts₀]

def dot_S8x128x512_S1024x512_S8x128x1024_2_1_01_0_n_n : DotDims S8x128x512 S1024x512 S8x128x1024 where
  lhsContracting := [2]
  rhsContracting := [1]
  lhsNonContracting := [0, 1]
  rhsNonContracting := [0]
  lhsBatch := []
  rhsBatch := []
  wf := dot_S8x128x512_S1024x512_S8x128x1024_2_1_01_0_n_n_wf
def dot_S8x128x128x1024_S1x1024_S8x128x128x1_3_1_012_0_n_n : DotDims S8x128x128x1024 S1x1024 S8x128x128x1 where
  lhsContracting := [3]
  rhsContracting := [1]
  lhsNonContracting := [0, 1, 2]
  rhsNonContracting := [0]
  lhsBatch := []
  rhsBatch := []
  wf := dot_S8x128x128x1024_S1x1024_S8x128x128x1_3_1_012_0_n_n_wf

class Facts : Prop extends Facts₀ where

variable [Facts]
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.Spec.lean ====
/-
  The function both programs compute, and the one law that joins their two arrangements.

  For a batch entry b, a query row p and a key row q the result is
      ∑ h < 1024, max (x·W1ˣ(h) + y·W1ʸ(h) + b1(h)) 0 · W2(h)  +  b2,
  where x·W1ˣ(h) = ∑ d < 512, X(b, p, d) · W1(h, d) and y·W1ʸ(h) = ∑ d < 512, Y(b, q, d) · W1(h, 512 + d).
  One program sums the 1024 hidden units in one go; the other sums them 512 at a time into an accumulator that starts
  at zero, and adds the bias before the second projection instead of after it. Addition on the extended reals is
  associative and commutative, so neither difference changes the value, whatever the inputs are.
-/
import proofs.«122719_j51118700757140_2_alg».proof.Proof.LibBlockedSum
import Idealize.ShloMosaic.PureOps.Ideal
import Idealize.ShloMosaic.Lib.ValueIdx

noncomputable section

namespace Cert.Spec

open Idealize.ShloMosaic Idealize.ShloMosaic.ValueIdx
open scoped BigOperators

variable (X Y : (⟨3, ![8, 128, 512]⟩ : Shape).Idx → EReal) (W1 : (⟨2, ![1024, 1024]⟩ : Shape).Idx → EReal)
  (B1 : (⟨1, ![1024]⟩ : Shape).Idx → EReal) (W2 : (⟨2, ![1, 1024]⟩ : Shape).Idx → EReal)

/-- Column d of the first half of W1's row h, and of its second half. -/
abbrev colx (d : Fin 512) : Fin 1024 := ⟨d.val, by have := d.isLt; omega⟩
abbrev coly (d : Fin 512) : Fin 1024 := ⟨512 + d.val, by have := d.isLt; omega⟩

/-- Hidden unit h's share of the result at (b, p, q), the bias added to the query projection first. -/
def term (b : Fin 8) (p q : Fin 128) (h : Fin 1024) : EReal :=
  max (((∑ d : Fin 512, X (ix3 b p d) * W1 (ix2 h (colx d))) + B1 (ix1 h))
      + ∑ d : Fin 512, Y (ix3 b q d) * W1 (ix2 h (coly d))) 0
    * W2 (ix2 (0 : Fin 1) h)

/-- The same share with the bias added to the sum of the two projections. -/
theorem term_eq (b : Fin 8) (p q : Fin 128) (h : Fin 1024) :
    max (((∑ d : Fin 512, X (ix3 b p d) * W1 (ix2 h (colx d))) + ∑ d : Fin 512, Y (ix3 b q d) * W1 (ix2 h (coly d)))
        + B1 (ix1 h)) 0 * W2 (ix2 (0 : Fin 1) h) = term X Y W1 B1 W2 b p q h := by
  unfold term
  rw [add_right_comm]

/-- The share as a function of a natural number, zero past the last hidden unit. -/
def termN (b : Fin 8) (p q : Fin 128) (h : ℕ) : EReal :=
  if hh : h < 1024 then term X Y W1 B1 W2 b p q ⟨h, hh⟩ else 0

/-- The 512 hidden units of tile s summed. -/
def tile (b : Fin 8) (p q : Fin 128) (s : ℕ) : EReal :=
  ∑ k : Fin 512, termN X Y W1 B1 W2 b p q (512 * s + k.val)

/-- The two tiles, accumulated from zero, are the sum over all hidden units. -/
theorem tiles_eq_total (b : Fin 8) (p q : Fin 128) :
    (0 + tile X Y W1 B1 W2 b p q 0) + tile X Y W1 B1 W2 b p q 1 = ∑ h : Fin 1024, term X Y W1 B1 W2 b p q h := by
  have e := Cert.Lib.BlockedSum.sum_fin_blocks (termN X Y W1 B1 W2 b p q) 2 512
  rw [Finset.sum_range_succ, Finset.sum_range_succ, Finset.sum_range_zero] at e
  rw [zero_add]
  rw [zero_add] at e
  refine e.trans ?_
  show ∑ k : Fin 1024, termN X Y W1 B1 W2 b p q k.val = _
  exact Finset.sum_congr rfl fun h _ => dif_pos h.isLt

end Cert.Spec

end
-- ==== Proof.RefSide.lean ====
/-
  The reference, read at an index.

  The reference forms the two projections over all 1024 hidden units at once, adds them, adds the bias, rectifies,
  contracts with W2 and adds b2. Read one operation at a time at (b, p, q) this is
      ∑ h < 1024, max ((x·W1ˣ(h) + y·W1ʸ(h)) + b1(h)) 0 · W2(h) + b2,
  which is the specification's sum of shares (the bias moved next to the first projection) plus b2.
-/
import proofs.«122719_j51118700757140_2_alg».proof.Proof.Gen.ReferenceIdeal.Read
import proofs.«122719_j51118700757140_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x0 x1 : (⟨S8x128x512, .f32⟩ : BufTy).Contents (Elt Ideal)) (x2 : (⟨S1024x1024, .f32⟩ : BufTy).Contents (Elt Ideal))
  (x3 : (⟨S1024, .f32⟩ : BufTy).Contents (Elt Ideal)) (x4 : (⟨S1x1024, .f32⟩ : BufTy).Contents (Elt Ideal))
  (x5 : (⟨S1, .f32⟩ : BufTy).Contents (Elt Ideal))

/-- The rectified hidden layer at (b, p, q, h). -/
theorem hidden_apply (b : Fin 8) (p q : Fin 128) (h : Fin 1024) :
    val_main_v12 (F := Ideal) x0 x1 x2 x3 (ix4 b p q h)
      = max (((∑ d : Fin 512, x0 (ix3 b p d) * x2 (ix2 h (Cert.Spec.colx d))) + ∑ d : Fin 512, x1 (ix3 b q d) * x2 (ix2 h (Cert.Spec.coly d)))
          + x3 (ix1 h)) 0 := by
  rw [val_main_v12_apply, val_main_v11_apply, val_main_v8_apply, val_main_v6_apply, val_main_v4_apply, val_main_v2_apply,
    val_main_v7_apply, val_main_v5_apply, val_main_v3_apply, val_main_v10_apply, val_main_v9_apply, val_main_call0_v0_apply,
    val_main_call0_cst_apply]
  show max (((∑ d : Fin 512, _ * _) + ∑ d : Fin 512, _ * _) + _) (Ideal.ofBits .f32 0x00000000#32) = _
  rw [Ideal.ofBits_zero_f32]
  congr 1
  congr 1
  · congr 1
    · refine Finset.sum_congr rfl fun d _ => ?_
      rw [val_main_v0_apply]
      congr 1
      · exact congrArg x0 (funext fun a => Fin.ext (by
          match a with
          | ⟨0, _⟩ => rfl
          | ⟨1, _⟩ => rfl
          | ⟨2, _⟩ => rfl))
      · exact congrArg x2 (funext fun a => Fin.ext (by
          match a with
          | ⟨0, _⟩ => rfl
          | ⟨1, _⟩ => rfl))
    · refine Finset.sum_congr rfl fun d _ => ?_
      rw [val_main_v1_apply]
      congr 1
      · exact congrArg x1 (funext fun a => Fin.ext (by
          match a with
          | ⟨0, _⟩ => rfl
          | ⟨1, _⟩ => rfl
          | ⟨2, _⟩ => rfl))
      · exact congrArg x2 (funext fun a => Fin.ext (by
          match a with
          | ⟨0, _⟩ => rfl
          | ⟨1, _⟩ => rfl))
  · exact congrArg x3 (funext fun a => Fin.ext (by
      match a with
      | ⟨0, _⟩ => rfl))

/-- The reshape at the end drops a unit axis: (b, p, q) reads (b, p, q, 0). -/
theorem idx17 (b : Fin 8) (p q : Fin 128) : idx_main_v17 (ix3 b p q) = ix4 b p q (0 : Fin 1) :=
  funext fun a => Fin.ext (by
    have hb := b.isLt; have hp := p.isLt; have hq := q.isLt
    match a with
    | ⟨0, _⟩ => show ((b.val * 128 + p.val) * 128 + q.val) / 16384 = b.val; omega
    | ⟨1, _⟩ => show ((b.val * 128 + p.val) * 128 + q.val) / 128 % 128 = p.val; omega
    | ⟨2, _⟩ => show ((b.val * 128 + p.val) * 128 + q.val) / 1 % 128 = q.val; omega
    | ⟨3, _⟩ => rfl)

/-- The reference's result at (b, p, q). -/
theorem result_apply (b : Fin 8) (p q : Fin 128) :
    val_main_v17 (F := Ideal) x0 x1 x2 x3 x4 x5 (ix3 b p q)
      = (∑ h : Fin 1024, Cert.Spec.term x0 x1 x2 x3 x4 b p q h) + x5 (ix1 (0 : Fin 1)) := by
  rw [val_main_v17_apply, idx17, val_main_v16_apply, val_main_v13_apply, val_main_v15_apply, val_main_v14_apply]
  show (∑ h : Fin 1024, _ * _) + _ = _
  congr 1
  · refine Finset.sum_congr rfl fun h _ => ?_
    rw [← Cert.Spec.term_eq, ← hidden_apply x0 x1 x2 x3 b p q h]
    congr 1
    · exact congrArg _ (funext fun a => Fin.ext (by
        match a with
        | ⟨0, _⟩ => rfl
        | ⟨1, _⟩ => rfl
        | ⟨2, _⟩ => rfl
        | ⟨3, _⟩ => rfl))
    · exact congrArg x4 (funext fun a => Fin.ext (by
        match a with
        | ⟨0, _⟩ => rfl
        | ⟨1, _⟩ => rfl))
  · exact congrArg x5 (funext fun a => Fin.ext (by
      match a with
      | ⟨0, _⟩ => rfl))

end Cert.ReferenceIdeal.RefValue

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.Body.lean ====
/-
  The arithmetic of one grid point, read at an index over the extended reals.

  One point holds a 128-row block of queries X, a 128-row block of keys Y, a 512-column tile of the two first-layer
  weight halves, of the bias and of the second-layer weight. It forms the two projections
  U(p, k) = ∑ d, X(p, d) · Wx(d, k) + b(k) and V(q, k) = ∑ d, Y(q, d) · Wy(d, k), and for every pair (p, q) adds to the
  accumulator ∑ k, max (U(p, k) + V(q, k)) 0 · w(k). The pairs are produced 32 key rows at a time: the four stretches
  differ only in which 32 rows of V they take.
-/
import proofs.«122719_j51118700757140_2_alg».proof.Proof.Gen.KernelIdeal.Skeleton
import proofs.«122719_j51118700757140_2_alg».proof.Proof.LibPlainDot
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Body

open Cert.KernelIdeal Cert.KernelIdeal.Gen Idealize.ShloMosaic Idealize.ShloMosaic.ValueIdx
open scoped BigOperators

section AnyValues

variable {F : FTy → Type} [FloatOps F]

/-- The rectified pairwise sums of one stretch: entry (p, r, k) is max (U(p, k) + V(off + r, k)) 0. -/
def pairs (off : Fin 2 → Nat) (h : S128x512.Slices off S32x512) (u v : FVec F S128x512 .bf16) : FVec F S128x32x512 .bf16 :=
  maximumf
    (addf (broadcastTo S128x32x512 (shapeCast S128x1x512 u shapeCasts_S128x512_S128x1x512) broadcasts_S128x1x512_S128x32x512)
      (broadcastTo S128x32x512 (shapeCast S1x32x512 (extractStridedSlice S32x512 off v h) shapeCasts_S32x512_S1x32x512)
        broadcasts_S1x32x512_S128x32x512))
    (broadcast S128x32x512 (Scalar.ofBits .bf16 0x0000#16))

/-- A stretch contracted with the second-layer weight: entry (p, r) is ∑ k, z(p, r, k) · w(k). -/
def contract (z : FVec F S128x32x512 .bf16) (w : FVec F S512x1 .bf16) : FVec F S128x32 .f32 :=
  shapeCast S128x32
    (matmul dot_S4096x512_S512x1_S4096x1_1_0_0_1_n_n none (shapeCast S4096x512 z shapeCasts_S128x32x512_S4096x512) w
      (constant S4096x1 .f32 0x00000000#32))
    shapeCasts_S4096x1_S128x32

theorem pay6_eq (x5 : Vec F S512x1 .bf16) : k0_pay6 x5 = x5 := by
  unfold k0_pay6; exact shapeCast_self _ _

theorem pay8_eq (a : FVec F S128x32 .f32) : k0_pay8 a = a := by
  unfold k0_pay8; exact shapeCast_self _ _

theorem pay3_eq : k0_pay3 (F := F) = broadcast S128x128 (Scalar.ofBits .f32 0x00000000#32) := by
  unfold k0_pay3; exact shapeCast_self _ _

theorem pay7_eq (x0 x1 : Vec F S1x128x512 .bf16) (x2 x3 : Vec F S512x512 .bf16) (x4 : Vec F S1x512 .f32) (x5 : Vec F S512x1 .bf16)
    (a : Vec F S128x32 .f32) :
    k0_pay7 x0 x1 x2 x3 x4 x5 a
      = addf a (contract (pairs ![0, 0] slices_S128x512_o0_0_S32x512 (k0_pay4 x0 x2 x4) (k0_pay5 x1 x3)) (k0_pay6 x5)) := rfl

theorem pay9_eq (u v : FVec F S128x512 .bf16) (w : FVec F S512x1 .bf16) (a : Vec F S128x32 .f32) :
    k0_pay9 u v w a = addf a (contract (pairs ![32, 0] slices_S128x512_o32_0_S32x512 u v) w) := by
  unfold k0_pay9; exact shapeCast_self _ _

theorem pay10_eq (u v : FVec F S128x512 .bf16) (w : FVec F S512x1 .bf16) (a : Vec F S128x32 .f32) :
    k0_pay10 u v w a = addf a (contract (pairs ![64, 0] slices_S128x512_o64_0_S32x512 u v) w) := by
  unfold k0_pay10; exact shapeCast_self _ _

theorem pay11_eq (u v : FVec F S128x512 .bf16) : k0_pay11 u v = pairs ![96, 0] slices_S128x512_o96_0_S32x512 u v := rfl

theorem pay1_eq (w : FVec F S512x1 .bf16) (z : FVec F S128x32x512 .bf16) (a : Vec F S128x32 .f32) :
    k0_pay1 w z a = addf a (contract z w) := by
  unfold k0_pay1; exact shapeCast_self _ _

end AnyValues

/-! ## Read at an index, at the exact values -/

/-- The rectified pairwise sum at (p, r, k): the key row is `off 0 + r`. -/
theorem pairs_apply (off : Fin 2 → Nat) (h : S128x512.Slices off S32x512) (h1 : off 1 = 0) (u v : FVec Ideal S128x512 .bf16)
    (p : Fin 128) (r : Fin 32) (k : Fin 512) (q : Fin 128) (hq : q.val = off 0 + r.val) :
    pairs off h u v (ix3 p r k) = max (u (ix2 p k) + v (ix2 q k)) 0 := by
  show max (broadcastTo S128x32x512 (shapeCast S128x1x512 u shapeCasts_S128x512_S128x1x512) broadcasts_S128x1x512_S128x32x512 (ix3 p r k)
      + broadcastTo S128x32x512 (shapeCast S1x32x512 (extractStridedSlice S32x512 off v h) shapeCasts_S32x512_S1x32x512)
          broadcasts_S1x32x512_S128x32x512 (ix3 p r k)) (Ideal.ofBits .bf16 0x0000#16) = _
  rw [Ideal.ofBits_zero_bf16,
    broadcastTo_apply _ broadcasts_S128x1x512_S128x32x512 (ix3 p r k) (ix3 p (0 : Fin 1) k) (fun a => match a with
      | ⟨0, _⟩ => by show p.val = if (128 : Nat) = 1 then 0 else p.val; rw [if_neg (by decide)]
      | ⟨1, _⟩ => by show 0 = if (1 : Nat) = 1 then 0 else r.val; rw [if_pos rfl]
      | ⟨2, _⟩ => by show k.val = if (512 : Nat) = 1 then 0 else k.val; rw [if_neg (by decide)]),
    shapeCast_apply u shapeCasts_S128x512_S128x1x512 (ix3 p (0 : Fin 1) k) (ix2 p k)
      (by rw [Shape.rowMajor_val_two, Shape.rowMajor_val_three]; show p.val * 512 + k.val = (p.val * 1 + 0) * 512 + k.val; omega),
    broadcastTo_apply _ broadcasts_S1x32x512_S128x32x512 (ix3 p r k) (ix3 (0 : Fin 1) r k) (fun a => match a with
      | ⟨0, _⟩ => by show 0 = if (1 : Nat) = 1 then 0 else p.val; rw [if_pos rfl]
      | ⟨1, _⟩ => by show r.val = if (32 : Nat) = 1 then 0 else r.val; rw [if_neg (by decide)]
      | ⟨2, _⟩ => by show k.val = if (512 : Nat) = 1 then 0 else k.val; rw [if_neg (by decide)]),
    shapeCast_apply _ shapeCasts_S32x512_S1x32x512 (ix3 (0 : Fin 1) r k) (ix2 r k)
      (by rw [Shape.rowMajor_val_two, Shape.rowMajor_val_three]; show r.val * 512 + k.val = (0 * 32 + r.val) * 512 + k.val; omega),
    extractStridedSlice_apply off v h (ix2 r k) (ix2 q k) (fun a => match a with
      | ⟨0, _⟩ => hq
      | ⟨1, _⟩ => by show k.val = off 1 + k.val; omega)]

/-- A stretch's contraction at (p, r). -/
theorem contract_apply (z : FVec Ideal S128x32x512 .bf16) (w : FVec Ideal S512x1 .bf16) (p : Fin 128) (r : Fin 32) :
    contract z w (ix2 p r) = ∑ k : Fin 512, z (ix3 p r k) * w (ix2 k (0 : Fin 1)) := by
  have hr : p.val * 32 + r.val < 4096 := by have := p.isLt; have := r.isLt; omega
  unfold contract
  rw [shapeCast_apply _ shapeCasts_S4096x1_S128x32 (ix2 p r) (ix2 (⟨p.val * 32 + r.val, hr⟩ : Fin 4096) (0 : Fin 1))
      (by rw [Shape.rowMajor_val_two, Shape.rowMajor_val_two]; show (p.val * 32 + r.val) * 1 + 0 = p.val * 32 + r.val; omega),
    show dot_S4096x512_S512x1_S4096x1_1_0_0_1_n_n = Cert.Lib.PlainDot.dims (a := 4096) (c := 512) (b := 1) dot_S4096x512_S512x1_S4096x1_1_0_0_1_n_n_wf from rfl,
    Cert.Lib.PlainDot.matmul_zero_apply]
  refine Finset.sum_congr rfl fun k _ => ?_
  rw [shapeCast_apply z shapeCasts_S128x32x512_S4096x512 (ix2 (⟨p.val * 32 + r.val, hr⟩ : Fin 4096) k) (ix3 p r k)
      (by rw [Shape.rowMajor_val_three, Shape.rowMajor_val_two]; rfl)]

/-- The query projection with its bias at (p, k). -/
theorem pay4_apply (x0 : Vec Ideal S1x128x512 .bf16) (x2 : Vec Ideal S512x512 .bf16) (x4 : Vec Ideal S1x512 .f32) (p : Fin 128) (k : Fin 512) :
    k0_pay4 x0 x2 x4 (ix2 p k) = (∑ d : Fin 512, x0 (ix3 (0 : Fin 1) p d) * x2 (ix2 d k)) + x4 (ix2 (0 : Fin 1) k) := by
  show matmul (F := Ideal) dot_S128x512_S512x512_S128x512_1_0_0_1_n_n none (shapeCast S128x512 (x0 : FVec Ideal S1x128x512 .bf16) shapeCasts_S1x128x512_S128x512)
        (shapeCast S512x512 (x2 : FVec Ideal S512x512 .bf16) shapeCasts_S512x512_S512x512) (constant (F := Ideal) S128x512 .f32 0x00000000#32) (ix2 p k)
      + broadcastTo S128x512 (shapeCast S1x512 (x4 : FVec Ideal S1x512 .f32) shapeCasts_S1x512_S1x512) broadcasts_S1x512_S128x512 (ix2 p k) = _
  rw [show dot_S128x512_S512x512_S128x512_1_0_0_1_n_n = Cert.Lib.PlainDot.dims (a := 128) (c := 512) (b := 512) dot_S128x512_S512x512_S128x512_1_0_0_1_n_n_wf from rfl,
    Cert.Lib.PlainDot.matmul_zero_apply, shapeCast_self, shapeCast_self,
    broadcastTo_apply x4 broadcasts_S1x512_S128x512 (ix2 p k) (ix2 (0 : Fin 1) k) (fun a => match a with
      | ⟨0, _⟩ => by show 0 = if (1 : Nat) = 1 then 0 else p.val; rw [if_pos rfl]
      | ⟨1, _⟩ => by show k.val = if (512 : Nat) = 1 then 0 else k.val; rw [if_neg (by decide)])]
  congr 1
  refine Finset.sum_congr rfl fun d _ => ?_
  rw [shapeCast_apply x0 shapeCasts_S1x128x512_S128x512 (ix2 p d) (ix3 (0 : Fin 1) p d)
      (by rw [Shape.rowMajor_val_two, Shape.rowMajor_val_three]; show (0 * 128 + p.val) * 512 + d.val = p.val * 512 + d.val; omega)]

/-- The key projection at (q, k). -/
theorem pay5_apply (x1 : Vec Ideal S1x128x512 .bf16) (x3 : Vec Ideal S512x512 .bf16) (q : Fin 128) (k : Fin 512) :
    k0_pay5 x1 x3 (ix2 q k) = ∑ d : Fin 512, x1 (ix3 (0 : Fin 1) q d) * x3 (ix2 d k) := by
  show matmul (F := Ideal) dot_S128x512_S512x512_S128x512_1_0_0_1_n_n none (shapeCast S128x512 (x1 : FVec Ideal S1x128x512 .bf16) shapeCasts_S1x128x512_S128x512)
        (shapeCast S512x512 (x3 : FVec Ideal S512x512 .bf16) shapeCasts_S512x512_S512x512) (constant (F := Ideal) S128x512 .f32 0x00000000#32) (ix2 q k) = _
  rw [show dot_S128x512_S512x512_S128x512_1_0_0_1_n_n = Cert.Lib.PlainDot.dims (a := 128) (c := 512) (b := 512) dot_S128x512_S512x512_S128x512_1_0_0_1_n_n_wf from rfl,
    Cert.Lib.PlainDot.matmul_zero_apply, shapeCast_self]
  refine Finset.sum_congr rfl fun d _ => ?_
  rw [shapeCast_apply x1 shapeCasts_S1x128x512_S128x512 (ix2 q d) (ix3 (0 : Fin 1) q d)
      (by rw [Shape.rowMajor_val_two, Shape.rowMajor_val_three]; show (0 * 128 + q.val) * 512 + d.val = q.val * 512 + d.val; omega)]

/-- What one point adds to the accumulator at (p, q), from its six blocks. -/
def hid (x0 x1 : Vec Ideal S1x128x512 .bf16) (x2 x3 : Vec Ideal S512x512 .bf16) (x4 : Vec Ideal S1x512 .f32) (x5 : Vec Ideal S512x1 .bf16)
    (y : S128x128.Idx) : EReal :=
  ∑ k : Fin 512,
    max (((∑ d : Fin 512, x0 (ix3 (0 : Fin 1) (y 0) d) * x2 (ix2 d k)) + x4 (ix2 (0 : Fin 1) k))
        + ∑ d : Fin 512, x1 (ix3 (0 : Fin 1) (y 1) d) * x3 (ix2 d k)) 0
      * x5 (ix2 k (0 : Fin 1))

/-- One stretch's contribution at (p, r) is the point's contribution at (p, off + r). -/
theorem stretch_apply (off : Fin 2 → Nat) (h : S128x512.Slices off S32x512) (h1 : off 1 = 0)
    (x0 x1 : Vec Ideal S1x128x512 .bf16) (x2 x3 : Vec Ideal S512x512 .bf16) (x4 : Vec Ideal S1x512 .f32) (x5 : Vec Ideal S512x1 .bf16)
    (p : Fin 128) (r : Fin 32) (q : Fin 128) (hq : q.val = off 0 + r.val) :
    contract (pairs off h (k0_pay4 x0 x2 x4) (k0_pay5 x1 x3)) x5 (ix2 p r) = hid x0 x1 x2 x3 x4 x5 (ix2 p q) := by
  rw [contract_apply]
  unfold hid
  refine Finset.sum_congr rfl fun k _ => ?_
  rw [pairs_apply off h h1 _ _ p r k q hq, pay4_apply, pay5_apply]

end Cert.KernelIdeal.Body

end
-- ==== Proof.LibStoreLists.lean ====
/-
  Lists of stores into one buffer, read back.

  A kernel body's stores into a buffer are kept as a list, last store first; the buffer's contents afterwards are the
  list's canonical contents: at each index the payload of the latest store whose rectangle holds the index. Two facts
  about such lists, over any value type and shape:
  * where the later stores already cover an index, the earlier stores do not matter (`canon_append_of_cover`);
  * a load through a rectangle that none of the later stores touches, when the first store filled the whole buffer,
    reads the fill (`readCov_fill`) — an accumulator zeroed whole and then updated piece by piece, each piece loaded
    before it is stored.
-/
import Idealize.ShloMosaic.Lib.Pipeline.Value
import Idealize.ShloMosaic.Lib.Pipeline.FrameBody

noncomputable section

namespace Cert.Lib.StoreLists

open Idealize.ShloMosaic

variable {Val : EltTy → Type} [∀ e, Nonempty (Val e)] {S : Shape} {e : EltTy}

/-- Where the later stores already cover an index, earlier stores do not matter. -/
theorem canon_append_of_cover (L L' : List (View.Piece Val S e)) (y : S.Idx) (h : ∃ p ∈ L, y ∈ p.1.set) :
    View.canon (L ++ L') y = View.canon L y := by
  induction L with
  | nil => obtain ⟨p, hp, _⟩ := h; exact absurd hp List.not_mem_nil
  | cons q L ih =>
    rw [List.cons_append]
    by_cases hq : y ∈ q.1.set
    · obtain ⟨r, w⟩ := q
      obtain ⟨x, rfl⟩ := r.exists_idx_of_mem hq
      rw [show r.idx x = r.emb x from rfl, View.canon_cons_emb, View.canon_cons_emb]
    · rw [View.canon_cons_of_not_mem _ _ hq, View.canon_cons_of_not_mem _ _ hq]
      refine ih ?_
      obtain ⟨p, hp, hy⟩ := h
      rcases List.mem_cons.mp hp with rfl | hp'
      · exact absurd hy hq
      · exact ⟨p, hp', hy⟩

/-- A load through a rectangle that no later store touches, after a first store that filled the whole buffer, reads the fill. -/
theorem readCov_fill {sig : RefSig} {κ : Kind} {sp : Space} (v : View sig κ sp S e) (L : List (View.Piece Val S e))
    {off : Fin S.rank → Nat} (h : off = fun _ => 0) (inb : ∀ a, off a + S.size a ≤ S.size a) (z : S.Idx → Val e) (R : Rect S)
    (d : ∀ p ∈ L, ∀ x, R.idx x ∉ p.1.set) :
    v.readCov (L ++ [(⟨Rect.unit off S.size inb, z⟩ : View.Piece Val S e)]) R.toLoadRect = View.ld z R := by
  rw [View.readCov_eq_canon_ld v _ R (fun y => ⟨_, List.mem_append_right _ List.mem_cons_self, View.mem_set_unit_zero h inb y⟩)]
  funext x
  show View.canon (L ++ [(⟨Rect.unit off S.size inb, z⟩ : View.Piece Val S e)]) (R.idx x) = z (R.idx x)
  induction L with
  | nil => exact congrFun (View.canon_unit_zero h inb z) _
  | cons p L ih =>
    rw [List.cons_append, View.canon_cons_of_not_mem p _ (d p List.mem_cons_self x)]
    exact ih fun q hq => d q (List.mem_cons_of_mem _ hq)

end Cert.Lib.StoreLists

end
-- ==== Proof.Pieces.lean ====
/-
  What one grid point leaves behind, as values.

  The accumulator is a 128 × 128 buffer that the body updates in four column stripes of width 32: stripe j is loaded,
  increased by the stretch's contribution and stored back. At a point that starts a batch entry the buffer is first
  filled with zeros, so every stripe is loaded from the zero fill; at the other points the stripes are loaded from
  what the previous point left. Either way the buffer ends, at every (p, q), at its earlier value plus the point's
  contribution there. At a point that ends a batch entry the whole buffer is then copied to the output block.
-/
import proofs.«122719_j51118700757140_2_alg».proof.Proof.Gen.KernelIdeal.Frame
import proofs.«122719_j51118700757140_2_alg».proof.Proof.Body
import proofs.«122719_j51118700757140_2_alg».proof.Proof.LibStoreLists
import Idealize.ShloMosaic.Lib.Pipeline.Value
import Idealize.ShloMosaic.Lib.Tactic

noncomputable section

namespace Cert.KernelIdeal.Pieces

open Cert.KernelIdeal Cert.KernelIdeal.Gen Cert.KernelIdeal.Body Cert.Lib.StoreLists
open Idealize.ShloMosaic Idealize.ShloMosaic.TcCoe Idealize.ShloMosaic.ValueIdx Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## The four column stripes -/

/-- Stripe `c` of the accumulator placed in the buffer: local (p, r) is (p, c + r). -/
theorem stripe_idx (c : Nat) (inb : ∀ a, (![0, c] : Fin 2 → Nat) a + S128x32.size a ≤ S128x128.size a) (p : Fin 128) (r : Fin 32)
    (q : Fin 128) (hq : q.val = c + r.val) :
    (Rect.unit (s := S128x128) ![0, c] S128x32.size inb).idx (ix2 p r) = ix2 p q :=
  funext fun a => Fin.ext (by
    match a with
    | ⟨0, _⟩ => show 0 + 1 * p.val = p.val; omega
    | ⟨1, _⟩ => show c + 1 * r.val = q.val; omega)

/-- A stripe lies to the right of every stripe that starts at least 32 columns before it. -/
theorem stripe_disjoint (cj ci : Nat) (inbj : ∀ a, (![0, cj] : Fin 2 → Nat) a + S128x32.size a ≤ S128x128.size a)
    (inbi : ∀ a, (![0, ci] : Fin 2 → Nat) a + S128x32.size a ≤ S128x128.size a) (h : ci + 32 ≤ cj)
    (x : (Rect.unit (s := S128x128) ![0, cj] S128x32.size inbj).shape.Idx) :
    (Rect.unit (s := S128x128) ![0, cj] S128x32.size inbj).idx x ∉ (Rect.unit (s := S128x128) ![0, ci] S128x32.size inbi).set := by
  intro hm
  have h1 := (Rect.mem_set_unit.mp hm) 1
  change ci ≤ cj + 1 * (x 1).val ∧ cj + 1 * (x 1).val < ci + 32 at h1
  omega

/-- The four stripe stores, last first, each of a loaded stripe plus a stretch's contribution. -/
abbrev stores (a0 a1 a2 a3 : Vec Ideal S128x32 .f32) (u v : FVec Ideal S128x512 .bf16) (w : FVec Ideal S512x1 .bf16) :
    List (View.Piece (Elt Ideal) S128x128 .f32) :=
  [⟨Rect.unit ![0, 96] S128x32.size inb_S128x128_S128x32_0_96, addf a3 (contract (pairs ![96, 0] slices_S128x512_o96_0_S32x512 u v) w)⟩,
    ⟨Rect.unit ![0, 64] S128x32.size inb_S128x128_S128x32_0_64, addf a2 (contract (pairs ![64, 0] slices_S128x512_o64_0_S32x512 u v) w)⟩,
    ⟨Rect.unit ![0, 32] S128x32.size inb_S128x128_S128x32_0_32, addf a1 (contract (pairs ![32, 0] slices_S128x512_o32_0_S32x512 u v) w)⟩,
    ⟨Rect.unit ![0, 0] S128x32.size inb_S128x128_S128x32_0_0, addf a0 (contract (pairs ![0, 0] slices_S128x512_o0_0_S32x512 u v) w)⟩]

/-- The four stripes cover the buffer. -/
theorem stores_cover (a0 a1 a2 a3 : Vec Ideal S128x32 .f32) (u v : FVec Ideal S128x512 .bf16) (w : FVec Ideal S512x1 .bf16) (y : S128x128.Idx) :
    ∃ pc ∈ stores a0 a1 a2 a3 u v w, y ∈ pc.1.set := by
  have hy0 : (y 0).val < 128 := (y 0).isLt
  have hy1 : (y 1).val < 128 := (y 1).isLt
  by_cases c1 : (y 1).val < 32
  · refine ⟨_, List.mem_cons_of_mem _ (List.mem_cons_of_mem _ (List.mem_cons_of_mem _ List.mem_cons_self)), ?_⟩
    show y ∈ (Rect.unit (s := S128x128) ![0, 0] S128x32.size inb_S128x128_S128x32_0_0).set
    exact Rect.mem_set_unit.mpr fun a => match a with
      | ⟨0, _⟩ => ⟨Nat.zero_le _, by show (y 0).val < 0 + 128; omega⟩
      | ⟨1, _⟩ => ⟨Nat.zero_le _, by show (y 1).val < 0 + 32; omega⟩
  by_cases c2 : (y 1).val < 64
  · refine ⟨_, List.mem_cons_of_mem _ (List.mem_cons_of_mem _ List.mem_cons_self), ?_⟩
    show y ∈ (Rect.unit (s := S128x128) ![0, 32] S128x32.size inb_S128x128_S128x32_0_32).set
    exact Rect.mem_set_unit.mpr fun a => match a with
      | ⟨0, _⟩ => ⟨Nat.zero_le _, by show (y 0).val < 0 + 128; omega⟩
      | ⟨1, _⟩ => ⟨by show 32 ≤ (y 1).val; omega, by show (y 1).val < 32 + 32; omega⟩
  by_cases c3 : (y 1).val < 96
  · refine ⟨_, List.mem_cons_of_mem _ List.mem_cons_self, ?_⟩
    show y ∈ (Rect.unit (s := S128x128) ![0, 64] S128x32.size inb_S128x128_S128x32_0_64).set
    exact Rect.mem_set_unit.mpr fun a => match a with
      | ⟨0, _⟩ => ⟨Nat.zero_le _, by show (y 0).val < 0 + 128; omega⟩
      | ⟨1, _⟩ => ⟨by show 64 ≤ (y 1).val; omega, by show (y 1).val < 64 + 32; omega⟩
  · refine ⟨_, List.mem_cons_self, ?_⟩
    show y ∈ (Rect.unit (s := S128x128) ![0, 96] S128x32.size inb_S128x128_S128x32_0_96).set
    exact Rect.mem_set_unit.mpr fun a => match a with
      | ⟨0, _⟩ => ⟨Nat.zero_le _, by show (y 0).val < 0 + 128; omega⟩
      | ⟨1, _⟩ => ⟨by show 96 ≤ (y 1).val; omega, by show (y 1).val < 96 + 32; omega⟩

/-- When each loaded stripe is the matching stripe of `acc`, the four stores leave `acc` plus the point's contribution, whatever
    was stored before them. -/
theorem canon_stores (a0 a1 a2 a3 : Vec Ideal S128x32 .f32) (x0 x1 : Vec Ideal S1x128x512 .bf16) (x2 x3 : Vec Ideal S512x512 .bf16) (x4 : Vec Ideal S1x512 .f32) (x5 : Vec Ideal S512x1 .bf16)
    (acc : S128x128.Idx → EReal) (Ltail : List (View.Piece (Elt Ideal) S128x128 .f32))
    (h0 : ∀ (p : Fin 128) (r : Fin 32) (q : Fin 128), q.val = 0 + r.val → a0 (ix2 p r) = acc (ix2 p q))
    (h1 : ∀ (p : Fin 128) (r : Fin 32) (q : Fin 128), q.val = 32 + r.val → a1 (ix2 p r) = acc (ix2 p q))
    (h2 : ∀ (p : Fin 128) (r : Fin 32) (q : Fin 128), q.val = 64 + r.val → a2 (ix2 p r) = acc (ix2 p q))
    (h3 : ∀ (p : Fin 128) (r : Fin 32) (q : Fin 128), q.val = 96 + r.val → a3 (ix2 p r) = acc (ix2 p q)) :
    View.canon (stores a0 a1 a2 a3 (k0_pay4 x0 x2 x4) (k0_pay5 x1 x3) x5 ++ Ltail) = fun y => acc y + hid x0 x1 x2 x3 x4 x5 y := by
  funext y
  rw [canon_append_of_cover _ _ y (stores_cover a0 a1 a2 a3 _ _ _ y)]
  refine View.canon_apply_of_pieces (fun y => acc y + hid x0 x1 x2 x3 x4 x5 y) _ ?_ y (stores_cover a0 a1 a2 a3 _ _ _ y)
  intro pc hpc
  simp only [List.mem_cons, List.not_mem_nil, or_false] at hpc
  rcases hpc with rfl | rfl | rfl | rfl
  · intro x
    have hx : (x 1).val < 32 := (x 1).isLt
    obtain ⟨p, r, rfl⟩ : ∃ (p : Fin 128) (r : Fin 32), x = ix2 p r := ⟨x 0, x 1, eq_ix2 x⟩
    have hq : 96 + r.val < 128 := by have := r.isLt; omega
    show a3 (ix2 p r) + contract (F := Ideal) _ x5 (ix2 p r) = acc ((Rect.unit (s := S128x128) ![0, 96] S128x32.size inb_S128x128_S128x32_0_96).idx (ix2 p r)) + hid x0 x1 x2 x3 x4 x5 ((Rect.unit (s := S128x128) ![0, 96] S128x32.size inb_S128x128_S128x32_0_96).idx (ix2 p r))
    rw [stripe_idx 96 _ p r ⟨96 + r.val, hq⟩ rfl, h3 p r ⟨96 + r.val, hq⟩ rfl, stretch_apply ![96, 0] _ rfl x0 x1 x2 x3 x4 x5 p r ⟨96 + r.val, hq⟩ rfl]
  · intro x
    obtain ⟨p, r, rfl⟩ : ∃ (p : Fin 128) (r : Fin 32), x = ix2 p r := ⟨x 0, x 1, eq_ix2 x⟩
    have hq : 64 + r.val < 128 := by have := r.isLt; omega
    show a2 (ix2 p r) + contract (F := Ideal) _ x5 (ix2 p r) = acc ((Rect.unit (s := S128x128) ![0, 64] S128x32.size inb_S128x128_S128x32_0_64).idx (ix2 p r)) + hid x0 x1 x2 x3 x4 x5 ((Rect.unit (s := S128x128) ![0, 64] S128x32.size inb_S128x128_S128x32_0_64).idx (ix2 p r))
    rw [stripe_idx 64 _ p r ⟨64 + r.val, hq⟩ rfl, h2 p r ⟨64 + r.val, hq⟩ rfl, stretch_apply ![64, 0] _ rfl x0 x1 x2 x3 x4 x5 p r ⟨64 + r.val, hq⟩ rfl]
  · intro x
    obtain ⟨p, r, rfl⟩ : ∃ (p : Fin 128) (r : Fin 32), x = ix2 p r := ⟨x 0, x 1, eq_ix2 x⟩
    have hq : 32 + r.val < 128 := by have := r.isLt; omega
    show a1 (ix2 p r) + contract (F := Ideal) _ x5 (ix2 p r) = acc ((Rect.unit (s := S128x128) ![0, 32] S128x32.size inb_S128x128_S128x32_0_32).idx (ix2 p r)) + hid x0 x1 x2 x3 x4 x5 ((Rect.unit (s := S128x128) ![0, 32] S128x32.size inb_S128x128_S128x32_0_32).idx (ix2 p r))
    rw [stripe_idx 32 _ p r ⟨32 + r.val, hq⟩ rfl, h1 p r ⟨32 + r.val, hq⟩ rfl, stretch_apply ![32, 0] _ rfl x0 x1 x2 x3 x4 x5 p r ⟨32 + r.val, hq⟩ rfl]
  · intro x
    obtain ⟨p, r, rfl⟩ : ∃ (p : Fin 128) (r : Fin 32), x = ix2 p r := ⟨x 0, x 1, eq_ix2 x⟩
    have hq : 0 + r.val < 128 := by have := r.isLt; omega
    show a0 (ix2 p r) + contract (F := Ideal) _ x5 (ix2 p r) = acc ((Rect.unit (s := S128x128) ![0, 0] S128x32.size inb_S128x128_S128x32_0_0).idx (ix2 p r)) + hid x0 x1 x2 x3 x4 x5 ((Rect.unit (s := S128x128) ![0, 0] S128x32.size inb_S128x128_S128x32_0_0).idx (ix2 p r))
    rw [stripe_idx 0 _ p r ⟨0 + r.val, hq⟩ rfl, h0 p r ⟨0 + r.val, hq⟩ rfl, stretch_apply ![0, 0] _ rfl x0 x1 x2 x3 x4 x5 p r ⟨0 + r.val, hq⟩ rfl]

/-- The same with nothing stored before. -/
theorem canon_stores_only (a0 a1 a2 a3 : Vec Ideal S128x32 .f32) (x0 x1 : Vec Ideal S1x128x512 .bf16) (x2 x3 : Vec Ideal S512x512 .bf16) (x4 : Vec Ideal S1x512 .f32) (x5 : Vec Ideal S512x1 .bf16)
    (acc : S128x128.Idx → EReal)
    (h0 : ∀ (p : Fin 128) (r : Fin 32) (q : Fin 128), q.val = 0 + r.val → a0 (ix2 p r) = acc (ix2 p q))
    (h1 : ∀ (p : Fin 128) (r : Fin 32) (q : Fin 128), q.val = 32 + r.val → a1 (ix2 p r) = acc (ix2 p q))
    (h2 : ∀ (p : Fin 128) (r : Fin 32) (q : Fin 128), q.val = 64 + r.val → a2 (ix2 p r) = acc (ix2 p q))
    (h3 : ∀ (p : Fin 128) (r : Fin 32) (q : Fin 128), q.val = 96 + r.val → a3 (ix2 p r) = acc (ix2 p q)) :
    View.canon (stores a0 a1 a2 a3 (k0_pay4 x0 x2 x4) (k0_pay5 x1 x3) x5) = fun y => acc y + hid x0 x1 x2 x3 x4 x5 y := by
  have h := canon_stores a0 a1 a2 a3 x0 x1 x2 x3 x4 x5 acc [] h0 h1 h2 h3
  rwa [List.append_nil] at h

/-- A stripe loaded from a buffer that reads `acc` is that stripe of `acc`. -/
theorem ld_stripe (c : Nat) (inb : ∀ a, (![0, c] : Fin 2 → Nat) a + S128x32.size a ≤ S128x128.size a) (acc : S128x128.Idx → EReal)
    (p : Fin 128) (r : Fin 32) (q : Fin 128) (hq : q.val = c + r.val) :
    View.ld (Val := Elt Ideal) (e' := .f32) acc (Rect.unit (s := S128x128) ![0, c] S128x32.size inb) (ix2 p r) = acc (ix2 p q) :=
  congrArg acc (stripe_idx c inb p r q hq)

/-- Stripe `c` loaded from a buffer that reads `acc`. -/
abbrev ldS (acc : S128x128.Idx → EReal) (c : Nat) (inb : ∀ a, (![0, c] : Fin 2 → Nat) a + S128x32.size a ≤ S128x128.size a) :
    Vec Ideal S128x32 .f32 :=
  View.ld (Val := Elt Ideal) (e' := .f32) acc (Rect.unit (s := S128x128) ![0, c] S128x32.size inb)

/-- The four stores over stripes loaded from `acc` leave `acc` plus the point's contribution. -/
theorem canon_from (acc : S128x128.Idx → EReal) (x0 x1 : Vec Ideal S1x128x512 .bf16) (x2 x3 : Vec Ideal S512x512 .bf16) (x4 : Vec Ideal S1x512 .f32) (x5 : Vec Ideal S512x1 .bf16) :
    View.canon (stores (ldS acc 0 inb_S128x128_S128x32_0_0) (ldS acc 32 inb_S128x128_S128x32_0_32) (ldS acc 64 inb_S128x128_S128x32_0_64)
      (ldS acc 96 inb_S128x128_S128x32_0_96) (k0_pay4 x0 x2 x4) (k0_pay5 x1 x3) x5) = fun y => acc y + hid x0 x1 x2 x3 x4 x5 y :=
  canon_stores_only _ _ _ _ x0 x1 x2 x3 x4 x5 acc
    (fun p r q hq => ld_stripe 0 _ acc p r q hq) (fun p r q hq => ld_stripe 32 _ acc p r q hq)
    (fun p r q hq => ld_stripe 64 _ acc p r q hq) (fun p r q hq => ld_stripe 96 _ acc p r q hq)

/-! ## The cases -/

/-- A point that does not start a batch entry: the accumulator ends at what it held plus the point's contribution. -/
theorem sout_B (c : Dev nD) (i : grid0.Coords) (arg2 : Memref sig .tc .vmem S1x128x512 .bf16) (harg2 : arg2.IsWhole) (arg3 : Memref sig .tc .vmem S1x128x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x1 .bf16) (harg7 : arg7.IsWhole) (arg8 : Memref sig .tc .vmem S1x128x128 .f32) (harg8 : arg8.IsWhole) (arg9 : Memref sig .tc .vmem S128x128 .f32) (harg9 : arg9.IsWhole) (hc0 : ¬cond0_0 i) (hc1 : cond0_1 i)
    (x0 x1 : Vec Ideal S1x128x512 .bf16) (x2 x3 : Vec Ideal S512x512 .bf16) (x4 : Vec Ideal S1x512 .f32) (x5 : Vec Ideal S512x1 .bf16) (xs0 : Vec Ideal S128x128 .f32) :
    sout0_B_0 (F := Ideal) c i arg2 harg2 arg3 harg3 arg4 harg4 arg5 harg5 arg6 harg6 arg7 harg7 arg8 harg8 arg9 harg9 hc0 hc1 x0 x1 x2 x3 x4 x5 xs0 = fun y => xs0 y + hid x0 x1 x2 x3 x4 x5 y := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  simp only [View.readAt_eq_ld, harg2.read_unread, harg3.read_unread, harg4.read_unread, harg5.read_unread,
    harg6.read_unread, harg7.read_unread, harg9.read_unread, View.ld_unit_zero (S := S1x128x512) hz3, View.ld_unit_zero (S := S512x512) hz2,
    View.ld_unit_zero (S := S1x512) hz2, View.ld_unit_zero (S := S512x1) hz2, pay1_eq, pay6_eq, pay7_eq, pay8_eq, pay9_eq, pay10_eq,
    pay11_eq]
  exact canon_from xs0 x0 x1 x2 x3 x4 x5

/-- The same point, when it also ends a batch entry, copies that accumulator to the output block. -/
theorem out_B6 (c : Dev nD) (i : grid0.Coords) (arg2 : Memref sig .tc .vmem S1x128x512 .bf16) (harg2 : arg2.IsWhole) (arg3 : Memref sig .tc .vmem S1x128x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x1 .bf16) (harg7 : arg7.IsWhole) (arg8 : Memref sig .tc .vmem S1x128x128 .f32) (harg8 : arg8.IsWhole) (arg9 : Memref sig .tc .vmem S128x128 .f32) (harg9 : arg9.IsWhole) (hc0 : ¬cond0_0 i) (hc1 : cond0_1 i)
    (x0 x1 : Vec Ideal S1x128x512 .bf16) (x2 x3 : Vec Ideal S512x512 .bf16) (x4 : Vec Ideal S1x512 .f32) (x5 : Vec Ideal S512x1 .bf16) (xs0 : Vec Ideal S128x128 .f32) :
    out0_B_6 (F := Ideal) c i arg2 harg2 arg3 harg3 arg4 harg4 arg5 harg5 arg6 harg6 arg7 harg7 arg8 harg8 arg9 harg9 hc0 hc1 x0 x1 x2 x3 x4 x5 xs0
      = shapeCast S1x128x128 (fun y => xs0 y + hid x0 x1 x2 x3 x4 x5 y) shapeCasts_S128x128_S1x128x128 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg9.read_unread, View.ld_unit_zero (S := S1x128x512) hz3, View.ld_unit_zero (S := S512x512) hz2,
    View.ld_unit_zero (S := S1x512) hz2, View.ld_unit_zero (S := S512x1) hz2, pay1_eq, pay6_eq, pay7_eq, pay8_eq, pay9_eq, pay10_eq,
    pay11_eq]
  show k0_pay2 (arg9.view.readCov (stores (ldS xs0 0 inb_S128x128_S128x32_0_0) (ldS xs0 32 inb_S128x128_S128x32_0_32)
    (ldS xs0 64 inb_S128x128_S128x32_0_64) (ldS xs0 96 inb_S128x128_S128x32_0_96) (k0_pay4 x0 x2 x4) (k0_pay5 x1 x3) x5)
    (Rect.unit (s := S128x128) ![0, 0] S128x128.size inb_S128x128_S128x128_0_0).toLoadRect) = _
  rw [View.readCov_eq_canon_ld _ _ _ (stores_cover _ _ _ _ _ _ _), canon_from, View.ld_unit_zero (S := S128x128) hz2]
  rfl

/-- A point that starts a batch entry: the accumulator is zeroed first, so it ends at the point's contribution alone. -/
theorem sout_A (c : Dev nD) (i : grid0.Coords) (arg2 : Memref sig .tc .vmem S1x128x512 .bf16) (harg2 : arg2.IsWhole) (arg3 : Memref sig .tc .vmem S1x128x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x1 .bf16) (harg7 : arg7.IsWhole) (arg8 : Memref sig .tc .vmem S1x128x128 .f32) (harg8 : arg8.IsWhole) (arg9 : Memref sig .tc .vmem S128x128 .f32) (harg9 : arg9.IsWhole) (hc0 : cond0_0 i) (hc1 : ¬cond0_1 i)
    (x0 x1 : Vec Ideal S1x128x512 .bf16) (x2 x3 : Vec Ideal S512x512 .bf16) (x4 : Vec Ideal S1x512 .f32) (x5 : Vec Ideal S512x1 .bf16) :
    sout0_A_0 (F := Ideal) c i arg2 harg2 arg3 harg3 arg4 harg4 arg5 harg5 arg6 harg6 arg7 harg7 arg8 harg8 arg9 harg9 hc0 hc1 x0 x1 x2 x3 x4 x5 = fun y => hid x0 x1 x2 x3 x4 x5 y := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  simp only [View.readAt_eq_ld, harg2.read_unread, harg3.read_unread, harg4.read_unread, harg5.read_unread,
    harg6.read_unread, harg7.read_unread, harg9.read_unread, View.ld_unit_zero (S := S1x128x512) hz3, View.ld_unit_zero (S := S512x512) hz2,
    View.ld_unit_zero (S := S1x512) hz2, View.ld_unit_zero (S := S512x1) hz2, pay1_eq, pay6_eq, pay7_eq, pay8_eq, pay9_eq, pay10_eq,
    pay11_eq, pay3_eq]
  refine (canon_stores _ _ _ _ x0 x1 x2 x3 x4 x5 (fun _ => 0) [_] ?_ ?_ ?_ ?_).trans ?_
  · intro p r q hq
    refine (congrFun (readCov_fill arg9.view [] hz2 inb_S128x128_S128x128_0_0 _ (Rect.unit (s := S128x128) ![0, 0] S128x32.size inb_S128x128_S128x32_0_0) ?_) (ix2 p r)).trans ?_
    swap
    · exact Ideal.ofBits_zero_f32
    · intro pc hpc; exact absurd hpc List.not_mem_nil
  · intro p r q hq
    refine (congrFun (readCov_fill arg9.view [_] hz2 inb_S128x128_S128x128_0_0 _ (Rect.unit (s := S128x128) ![0, 32] S128x32.size inb_S128x128_S128x32_0_32) ?_) (ix2 p r)).trans ?_
    swap
    · exact Ideal.ofBits_zero_f32
    · intro pc hpc x
      rw [List.mem_singleton] at hpc
      subst hpc
      exact stripe_disjoint 32 0 inb_S128x128_S128x32_0_32 inb_S128x128_S128x32_0_0 (by omega) x
  · intro p r q hq
    refine (congrFun (readCov_fill arg9.view [_, _] hz2 inb_S128x128_S128x128_0_0 _ (Rect.unit (s := S128x128) ![0, 64] S128x32.size inb_S128x128_S128x32_0_64) ?_) (ix2 p r)).trans ?_
    swap
    · exact Ideal.ofBits_zero_f32
    · intro pc hpc x
      simp only [List.mem_cons, List.not_mem_nil, or_false] at hpc
      rcases hpc with rfl | rfl
      · exact stripe_disjoint 64 32 inb_S128x128_S128x32_0_64 inb_S128x128_S128x32_0_32 (by omega) x
      · exact stripe_disjoint 64 0 inb_S128x128_S128x32_0_64 inb_S128x128_S128x32_0_0 (by omega) x
  · intro p r q hq
    refine (congrFun (readCov_fill arg9.view [_, _, _] hz2 inb_S128x128_S128x128_0_0 _ (Rect.unit (s := S128x128) ![0, 96] S128x32.size inb_S128x128_S128x32_0_96) ?_) (ix2 p r)).trans ?_
    swap
    · exact Ideal.ofBits_zero_f32
    · intro pc hpc x
      simp only [List.mem_cons, List.not_mem_nil, or_false] at hpc
      rcases hpc with rfl | rfl | rfl
      · exact stripe_disjoint 96 64 inb_S128x128_S128x32_0_96 inb_S128x128_S128x32_0_64 (by omega) x
      · exact stripe_disjoint 96 32 inb_S128x128_S128x32_0_96 inb_S128x128_S128x32_0_32 (by omega) x
      · exact stripe_disjoint 96 0 inb_S128x128_S128x32_0_96 inb_S128x128_S128x32_0_0 (by omega) x
  · funext y
    exact zero_add _

end Cert.KernelIdeal.Pieces

end
-- ==== Proof.Blocks.lean ====
/-
  The blocks a grid point is given, read off the program's arguments.

  Point t = 2·b + s (batch entry b, hidden tile s) is given row block b of X and of Y, columns 512·s … 512·s + 511 of the
  two transposed halves of W1, of the bias row and of the transposed W2. The arrays those windows stage were written
  by the host lines before the call — slices, transposes, a reshape, changes of float format, which at the exact
  values are the identity — so every block entry is one entry of an argument.
-/
import proofs.«122719_j51118700757140_2_alg».proof.Proof.Gen.KernelIdeal.Frame
import proofs.«122719_j51118700757140_2_alg».proof.Proof.Body
import proofs.«122719_j51118700757140_2_alg».proof.Proof.Spec
import Idealize.ShloMosaic.Lib.Pipeline.Value
import Idealize.ShloMosaic.Lib.StableHlo.Run

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-! ## The arrays the windows stage, as the call finds them -/

theorem V_v9 (c : Dev nD) (i : S8x128x512.Idx) : V m c main_v9 i = (m ((c : Thread nD τ).loc main_arg0)) i := by
  have e : @Eq (S8x128x512.Idx → EReal) (V m c main_v9) (truncf (F := Ideal) .bf16 (m ((c : Thread nD τ).loc main_arg0)) bitsLt_bf16_f32) := by
    show StableHlo.after hostOps0 (fun b => m (c, b)) (Proc.devRef .tc main_v9) = _
    after_results <;> rfl
  exact congrFun e i

theorem V_v10 (c : Dev nD) (i : S8x128x512.Idx) : V m c main_v10 i = (m ((c : Thread nD τ).loc main_arg1)) i := by
  have e : @Eq (S8x128x512.Idx → EReal) (V m c main_v10) (truncf (F := Ideal) .bf16 (m ((c : Thread nD τ).loc main_arg1)) bitsLt_bf16_f32) := by
    show StableHlo.after hostOps0 (fun b => m (c, b)) (Proc.devRef .tc main_v10) = _
    after_results <;> rfl
  exact congrFun e i

/-- The transposed first half of W1 at (d, h) is W1 at (h, d). -/
theorem V_v3 (c : Dev nD) (d : Fin 512) (h : Fin 1024) :
    V m c main_v3 (ix2 d h) = (m ((c : Thread nD τ).loc main_arg2)) (ix2 h (Cert.Spec.colx d)) := by
  have e : @Eq (S512x1024.Idx → EReal) (V m c main_v3) (truncf (F := Ideal) .bf16 (transpose S512x1024 [1, 0] (extractStridedSlice S1024x512 ![0, 0] (m ((c : Thread nD τ).loc main_arg2)) slices_S1024x1024_S1024x512_0_0)
          transposes_S1024x512_S512x1024_1_0) bitsLt_bf16_f32) := by
    show StableHlo.after hostOps0 (fun b => m (c, b)) (Proc.devRef .tc main_v3) = _
    after_results <;> rfl
  refine (congrFun e (ix2 d h)).trans ?_
  rw [truncf_apply]
  rw [transpose_apply [1, 0] _ transposes_S1024x512_S512x1024_1_0 (ix2 d h) (ix2 h d) (fun b => match b with
      | ⟨0, _⟩ => rfl
      | ⟨1, _⟩ => rfl),
    extractStridedSlice_apply ![0, 0] _ slices_S1024x1024_S1024x512_0_0 (ix2 h d) (ix2 h (Cert.Spec.colx d)) (fun a => match a with
      | ⟨0, _⟩ => by show h.val = 0 + h.val; omega
      | ⟨1, _⟩ => by show d.val = 0 + d.val; omega)]

/-- The transposed second half of W1 at (d, h) is W1 at (h, 512 + d). -/
theorem V_v5 (c : Dev nD) (d : Fin 512) (h : Fin 1024) :
    V m c main_v5 (ix2 d h) = (m ((c : Thread nD τ).loc main_arg2)) (ix2 h (Cert.Spec.coly d)) := by
  have e : @Eq (S512x1024.Idx → EReal) (V m c main_v5) (truncf (F := Ideal) .bf16 (transpose S512x1024 [1, 0] (extractStridedSlice S1024x512 ![0, 512] (m ((c : Thread nD τ).loc main_arg2)) slices_S1024x1024_S1024x512_0_512)
          transposes_S1024x512_S512x1024_1_0) bitsLt_bf16_f32) := by
    show StableHlo.after hostOps0 (fun b => m (c, b)) (Proc.devRef .tc main_v5) = _
    after_results <;> rfl
  refine (congrFun e (ix2 d h)).trans ?_
  rw [truncf_apply]
  rw [transpose_apply [1, 0] _ transposes_S1024x512_S512x1024_1_0 (ix2 d h) (ix2 h d) (fun b => match b with
      | ⟨0, _⟩ => rfl
      | ⟨1, _⟩ => rfl),
    extractStridedSlice_apply ![0, 512] _ slices_S1024x1024_S1024x512_0_512 (ix2 h d) (ix2 h (Cert.Spec.coly d)) (fun a => match a with
      | ⟨0, _⟩ => by show h.val = 0 + h.val; omega
      | ⟨1, _⟩ => by show 512 + d.val = 512 + d.val; rfl)]

/-- The bias as a row at (0, h) is the bias at h. -/
theorem V_v6 (c : Dev nD) (h : Fin 1024) : V m c main_v6 (ix2 (0 : Fin 1) h) = (m ((c : Thread nD τ).loc main_arg3)) (ix1 h) := by
  have e : @Eq (S1x1024.Idx → EReal) (V m c main_v6) (shapeCast S1x1024 (m ((c : Thread nD τ).loc main_arg3)) shapeCasts_S1024_S1x1024) := by
    show StableHlo.after hostOps0 (fun b => m (c, b)) (Proc.devRef .tc main_v6) = _
    after_results <;> rfl
  refine (congrFun e (ix2 (0 : Fin 1) h)).trans ?_
  rw [shapeCast_apply _ shapeCasts_S1024_S1x1024 (ix2 (0 : Fin 1) h) (ix1 h)
    (by rw [Shape.rowMajor_val_one, Shape.rowMajor_val_two]; show h.val = 0 * 1024 + h.val; omega)]

/-- The transposed W2 at (h, 0) is W2 at (0, h). -/
theorem V_v8 (c : Dev nD) (h : Fin 1024) : V m c main_v8 (ix2 h (0 : Fin 1)) = (m ((c : Thread nD τ).loc main_arg4)) (ix2 (0 : Fin 1) h) := by
  have e : @Eq (S1024x1.Idx → EReal) (V m c main_v8) (truncf (F := Ideal) .bf16 (transpose S1024x1 [1, 0] (m ((c : Thread nD τ).loc main_arg4)) transposes_S1x1024_S1024x1_1_0) bitsLt_bf16_f32) := by
    show StableHlo.after hostOps0 (fun b => m (c, b)) (Proc.devRef .tc main_v8) = _
    after_results <;> rfl
  refine (congrFun e (ix2 h (0 : Fin 1))).trans ?_
  rw [truncf_apply]
  rw [transpose_apply [1, 0] _ transposes_S1x1024_S1024x1_1_0 (ix2 h (0 : Fin 1)) (ix2 (0 : Fin 1) h) (fun b => match b with
      | ⟨0, _⟩ => rfl
      | ⟨1, _⟩ => rfl)]

/-! ## Which block each point is given -/

/-- The printed index maps, decided over the sixteen points: point t is batch entry t / 2 and hidden tile t % 2. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = t.val % 2
    ∧ win0_3.index t (0 : Fin 2) = 0 ∧ win0_3.index t (1 : Fin 2) = t.val % 2
    ∧ win0_4.index t (0 : Fin 2) = 0 ∧ win0_4.index t (1 : Fin 2) = t.val % 2
    ∧ win0_5.index t (0 : Fin 2) = t.val % 2 ∧ win0_5.index t (1 : Fin 2) = 0
    ∧ win0_6.index t (0 : Fin 3) = t.val / 2 ∧ win0_6.index t (1 : Fin 3) = 0 ∧ win0_6.index t (2 : Fin 3) = 0 :=
  (by decide +kernel : ∀ t : Fin grid0.N, _)

variable (c : Dev nD) (t : Fin cfg0.N)

theorem iblk0_apply (p : Fin 128) (d : Fin 512) (b : Fin 8) (hb : b.val = t.val / 2) :
    (iblk m c 0 t : Vec Ideal S1x128x512 .bf16) (ix3 (0 : Fin 1) p d) = (m ((c : Thread nD τ).loc main_arg0)) (ix3 b p d) := by
  obtain ⟨e0, e1, e2, -⟩ := idx_facts t
  show V m c main_v9 (((cfg0.win 0).blk t).view.emb (ix3 (0 : Fin 1) p d)) = _
  rw [V_v9]
  congr 1
  funext a; apply Fin.ext
  match a with
  | ⟨0, _⟩ => show win0_0.index t (0 : Fin 3) * 1 + 1 * 0 = b.val; omega
  | ⟨1, _⟩ => show win0_0.index t (1 : Fin 3) * 128 + 1 * p.val = p.val; omega
  | ⟨2, _⟩ => show win0_0.index t (2 : Fin 3) * 512 + 1 * d.val = d.val; omega

theorem iblk1_apply (q : Fin 128) (d : Fin 512) (b : Fin 8) (hb : b.val = t.val / 2) :
    (iblk m c 1 t : Vec Ideal S1x128x512 .bf16) (ix3 (0 : Fin 1) q d) = (m ((c : Thread nD τ).loc main_arg1)) (ix3 b q d) := by
  obtain ⟨-, -, -, e0, e1, e2, -⟩ := idx_facts t
  show V m c main_v10 (((cfg0.win 1).blk t).view.emb (ix3 (0 : Fin 1) q d)) = _
  rw [V_v10]
  congr 1
  funext a; apply Fin.ext
  match a with
  | ⟨0, _⟩ => show win0_1.index t (0 : Fin 3) * 1 + 1 * 0 = b.val; omega
  | ⟨1, _⟩ => show win0_1.index t (1 : Fin 3) * 128 + 1 * q.val = q.val; omega
  | ⟨2, _⟩ => show win0_1.index t (2 : Fin 3) * 512 + 1 * d.val = d.val; omega

theorem iblk2_apply (d : Fin 512) (k : Fin 512) (h : Fin 1024) (hh : h.val = 512 * (t.val % 2) + k.val) :
    (iblk m c 2 t : Vec Ideal S512x512 .bf16) (ix2 d k) = (m ((c : Thread nD τ).loc main_arg2)) (ix2 h (Cert.Spec.colx d)) := by
  obtain ⟨-, -, -, -, -, -, e0, e1, -⟩ := idx_facts t
  show V m c main_v3 (((cfg0.win 2).blk t).view.emb (ix2 d k)) = _
  rw [← V_v3 m c d h]
  congr 1
  funext a; apply Fin.ext
  match a with
  | ⟨0, _⟩ => show win0_2.index t (0 : Fin 2) * 512 + 1 * d.val = d.val; omega
  | ⟨1, _⟩ => show win0_2.index t (1 : Fin 2) * 512 + 1 * k.val = h.val; omega

theorem iblk3_apply (d : Fin 512) (k : Fin 512) (h : Fin 1024) (hh : h.val = 512 * (t.val % 2) + k.val) :
    (iblk m c 3 t : Vec Ideal S512x512 .bf16) (ix2 d k) = (m ((c : Thread nD τ).loc main_arg2)) (ix2 h (Cert.Spec.coly d)) := by
  obtain ⟨-, -, -, -, -, -, -, -, e0, e1, -⟩ := idx_facts t
  show V m c main_v5 (((cfg0.win 3).blk t).view.emb (ix2 d k)) = _
  rw [← V_v5 m c d h]
  congr 1
  funext a; apply Fin.ext
  match a with
  | ⟨0, _⟩ => show win0_3.index t (0 : Fin 2) * 512 + 1 * d.val = d.val; omega
  | ⟨1, _⟩ => show win0_3.index t (1 : Fin 2) * 512 + 1 * k.val = h.val; omega

theorem iblk4_apply (k : Fin 512) (h : Fin 1024) (hh : h.val = 512 * (t.val % 2) + k.val) :
    (iblk m c 4 t : Vec Ideal S1x512 .f32) (ix2 (0 : Fin 1) k) = (m ((c : Thread nD τ).loc main_arg3)) (ix1 h) := by
  obtain ⟨-, -, -, -, -, -, -, -, -, -, e0, e1, -⟩ := idx_facts t
  show V m c main_v6 (((cfg0.win 4).blk t).view.emb (ix2 (0 : Fin 1) k)) = _
  rw [← V_v6 m c h]
  congr 1
  funext a; apply Fin.ext
  match a with
  | ⟨0, _⟩ => show win0_4.index t (0 : Fin 2) * 1 + 1 * 0 = 0; omega
  | ⟨1, _⟩ => show win0_4.index t (1 : Fin 2) * 512 + 1 * k.val = h.val; omega

theorem iblk5_apply (k : Fin 512) (h : Fin 1024) (hh : h.val = 512 * (t.val % 2) + k.val) :
    (iblk m c 5 t : Vec Ideal S512x1 .bf16) (ix2 k (0 : Fin 1)) = (m ((c : Thread nD τ).loc main_arg4)) (ix2 (0 : Fin 1) h) := by
  obtain ⟨-, -, -, -, -, -, -, -, -, -, -, -, e0, e1, -⟩ := idx_facts t
  show V m c main_v8 (((cfg0.win 5).blk t).view.emb (ix2 k (0 : Fin 1))) = _
  rw [← V_v8 m c h]
  congr 1
  funext a; apply Fin.ext
  match a with
  | ⟨0, _⟩ => show win0_5.index t (0 : Fin 2) * 512 + 1 * k.val = h.val; omega
  | ⟨1, _⟩ => show win0_5.index t (1 : Fin 2) * 1 + 1 * 0 = 0; omega

/-- The point's contribution from blocks whose entries are known entries of the arguments. -/
theorem hid_eq (x0 x1 : Vec Ideal S1x128x512 .bf16) (x2 x3 : Vec Ideal S512x512 .bf16) (x4 : Vec Ideal S1x512 .f32) (x5 : Vec Ideal S512x1 .bf16)
    (X Y : S8x128x512.Idx → EReal) (W1 : S1024x1024.Idx → EReal) (B1 : S1024.Idx → EReal) (W2 : S1x1024.Idx → EReal)
    (b : Fin 8) (p q : Fin 128) (s : ℕ) (hs : s < 2)
    (h0 : ∀ d : Fin 512, x0 (ix3 (0 : Fin 1) p d) = X (ix3 b p d))
    (h1 : ∀ d : Fin 512, x1 (ix3 (0 : Fin 1) q d) = Y (ix3 b q d))
    (h2 : ∀ (d k : Fin 512) (h : Fin 1024), h.val = 512 * s + k.val → x2 (ix2 d k) = W1 (ix2 h (Cert.Spec.colx d)))
    (h3 : ∀ (d k : Fin 512) (h : Fin 1024), h.val = 512 * s + k.val → x3 (ix2 d k) = W1 (ix2 h (Cert.Spec.coly d)))
    (h4 : ∀ (k : Fin 512) (h : Fin 1024), h.val = 512 * s + k.val → x4 (ix2 (0 : Fin 1) k) = B1 (ix1 h))
    (h5 : ∀ (k : Fin 512) (h : Fin 1024), h.val = 512 * s + k.val → x5 (ix2 k (0 : Fin 1)) = W2 (ix2 (0 : Fin 1) h)) :
    hid x0 x1 x2 x3 x4 x5 (ix2 p q) = Cert.Spec.tile X Y W1 B1 W2 b p q s := by
  unfold Cert.Spec.tile
  show ∑ k : Fin 512,
      max (((∑ d : Fin 512, x0 (ix3 (0 : Fin 1) p d) * x2 (ix2 d k)) + x4 (ix2 (0 : Fin 1) k))
        + ∑ d : Fin 512, x1 (ix3 (0 : Fin 1) q d) * x3 (ix2 d k)) 0 * x5 (ix2 k (0 : Fin 1)) = _
  refine Finset.sum_congr rfl fun k _ => ?_
  have hk : 512 * s + k.val < 1024 := by have := k.isLt; omega
  unfold Cert.Spec.termN
  rw [dif_pos hk]
  unfold Cert.Spec.term
  simp only [h0, h1, fun d => h2 d k ⟨_, hk⟩ rfl, fun d => h3 d k ⟨_, hk⟩ rfl, h4 k ⟨_, hk⟩ rfl, h5 k ⟨_, hk⟩ rfl]

/-- What point t adds at (p, q): the hidden units of tile t % 2, for batch entry t / 2. -/
theorem hid_point (p q : Fin 128) (b : Fin 8) (hb : b.val = t.val / 2) (s : ℕ) (hs : t.val % 2 = s) :
    hid (iblk m c 0 t) (iblk m c 1 t) (iblk m c 2 t) (iblk m c 3 t) (iblk m c 4 t) (iblk m c 5 t) (ix2 p q)
      = Cert.Spec.tile (m ((c : Thread nD τ).loc main_arg0)) (m ((c : Thread nD τ).loc main_arg1)) (m ((c : Thread nD τ).loc main_arg2)) (m ((c : Thread nD τ).loc main_arg3)) (m ((c : Thread nD τ).loc main_arg4)) b p q s := by
  subst hs
  exact hid_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) b p q (t.val % 2)
    (Nat.mod_lt _ (by decide))
    (fun d => iblk0_apply m c t p d b hb) (fun d => iblk1_apply m c t q d b hb)
    (fun d k h hh => iblk2_apply m c t d k h hh) (fun d k h hh => iblk3_apply m c t d k h hh)
    (fun k h hh => iblk4_apply m c t k h hh) (fun k h hh => iblk5_apply m c t k h hh)

end Cert.KernelIdeal.Blocks

end
-- ==== Proof.Accum.lean ====
/-
  From the points to the program's result.

  The sixteen points come in pairs: point 2·b starts batch entry b with hidden tile 0, point 2·b + 1 adds hidden tile 1
  and writes the accumulator back as block b of the call's result. So block b of that array is tile 0's sum plus
  tile 1's sum, and the eight blocks fill the array. The host line after the call adds b2 to every entry.
-/
import proofs.«122719_j51118700757140_2_alg».proof.Proof.Gen.KernelIdeal.Frame
import proofs.«122719_j51118700757140_2_alg».proof.Proof.Pieces
import proofs.«122719_j51118700757140_2_alg».proof.Proof.Blocks
import proofs.«122719_j51118700757140_2_alg».proof.Proof.Spec
import Idealize.ShloMosaic.Lib.Pipeline.Value
import Idealize.ShloMosaic.Lib.StableHlo.Run
import Idealize.ShloMosaic.Lib.IdealHost

noncomputable section

namespace Cert.KernelIdeal.Accum

open Cert.KernelIdeal Cert.KernelIdeal.Gen Cert.KernelIdeal.Body Cert.KernelIdeal.Pieces Cert.KernelIdeal.Blocks
open Idealize.ShloMosaic Idealize.ShloMosaic.TcCoe Idealize.ShloMosaic.ValueIdx Idealize.SL.Sem Idealize.ShloMosaic.StableHlo
open Idealize.ShloMosaic.Pipeline (Dat)
open scoped BigOperators

variable (m : (ℓ : Loc nD τ sig) → Buf (Elt Ideal) ℓ) (ρ : Dev nD → PrngReg) (c : Dev nD)

/-- What point n adds to the accumulator. -/
abbrev added (n : ℕ) (hn : n < cfg0.N) : S128x128.Idx → EReal :=
  hid (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)

/-- After a point that starts a batch entry the accumulator holds that point's contribution. -/
theorem acc_even (n : ℕ) (hn : n < cfg0.N) (h0 : n % 2 = 0) : (outsAt0 m c n hn).2 = fun y => added m c n hn y := by
  have h1 : ¬ n % 2 = 1 := by omega
  have e : outsAt0 m c n hn = _ := outsAt0_A m c ⟨n, hn⟩ h0 h1
  rw [e]
  exact sout_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _)
    ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)

set_option maxHeartbeats 1000000 in
/-- After a point that ends a batch entry the output block holds both points' contributions. -/
theorem out_odd (n : ℕ) (hn : n < cfg0.N) (h1 : n % 2 = 1) :
    (outsAt0 m c n hn).1 = shapeCast S1x128x128 (fun y => added m c (n - 1) (by omega) y + added m c n hn y) shapeCasts_S128x128_S1x128x128 := by
  have h0 : ¬ n % 2 = 0 := by omega
  have e : outsAt0 m c n hn = _ := outsAt0_B m c ⟨n, hn⟩ h0 h1
  rw [e]
  dsimp only
  refine (out_B6 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _)
    (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)
    (outsAt0 m c (n - 1) (Nat.lt_of_le_of_lt (Nat.sub_le _ _) hn)).2).trans ?_
  rw [acc_even m c (n - 1) (Nat.lt_of_le_of_lt (Nat.sub_le _ _) hn) (by omega)]

/-- The call's result array after the run: at (b, p, q) the two tiles' sums. -/
def result : Buf (Elt Ideal) ((c : Thread nD τ).loc main_v11) := fun i =>
  Cert.Spec.tile (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) 0
    + Cert.Spec.tile (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) 1

/-- What a point that ends batch entry b writes back is block b of that array. -/
theorem flushed_eq (t : Fin cfg0.N) (hf : (cfg0.win 6).flush t = true) :
    (dats m 0 c).flushed 6 t = ((cfg0.win 6).blk t).view.read (Elt Ideal) (result m c) := by
  have h1 : t.val % 2 = 1 := (flush0_6 t).mp hf
  have hN : t.val < 16 := lt_of_lt_of_eq t.isLt (show cfg0.N = 16 from N_0)
  obtain ⟨-, -, -, -, -, -, -, -, -, -, -, -, -, -, e0, e1, e2⟩ := idx_facts t
  show (cfg0.win 6).cut (grid0.coords t) ((dats m 0 c).after 6 t) = _
  rw [after0_6, out_odd m c t.val t.isLt h1]
  funext j
  obtain ⟨u, p, q, rfl⟩ : ∃ (u : Fin 1) (p q : Fin 128), j = ix3 u p q := ⟨j 0, j 1, j 2, eq_ix3 j⟩
  have hu : u.val = 0 := by have := u.isLt; omega
  have hb : t.val / 2 < 8 := by omega
  show shapeCast S1x128x128 (fun y => added m c (t.val - 1) _ y + added m c t.val t.isLt y) shapeCasts_S128x128_S1x128x128 (ix3 u p q)
    = result m c (((cfg0.win 6).blk t).view.emb (ix3 u p q))
  rw [shapeCast_apply _ shapeCasts_S128x128_S1x128x128 (ix3 u p q) (ix2 p q)
    (by rw [Shape.rowMajor_val_two, Shape.rowMajor_val_three]; show p.val * 128 + q.val = (u.val * 128 + p.val) * 128 + q.val; omega)]
  show added m c (t.val - 1) _ (ix2 p q) + added m c t.val t.isLt (ix2 p q) = result m c (((cfg0.win 6).blk t).view.emb (ix3 u p q))
  rw [show ((cfg0.win 6).blk t).view.emb (ix3 u p q) = (ix3 (⟨t.val / 2, hb⟩ : Fin 8) p q : S8x128x128.Idx) from
    funext fun a => Fin.ext (by
      match a with
      | ⟨0, _⟩ => show win0_6.index t (0 : Fin 3) * 1 + 1 * u.val = t.val / 2; omega
      | ⟨1, _⟩ => show win0_6.index t (1 : Fin 3) * 128 + 1 * p.val = p.val; omega
      | ⟨2, _⟩ => show win0_6.index t (2 : Fin 3) * 128 + 1 * q.val = q.val; omega)]
  show hid _ _ _ _ _ _ (ix2 p q) + hid _ _ _ _ _ _ (ix2 p q) = Cert.Spec.tile _ _ _ _ _ (⟨t.val / 2, hb⟩ : Fin 8) p q 0 + Cert.Spec.tile _ _ _ _ _ (⟨t.val / 2, hb⟩ : Fin 8) p q 1
  rw [hid_point m c ⟨t.val - 1, by omega⟩ p q ⟨t.val / 2, hb⟩ (by show t.val / 2 = (t.val - 1) / 2; omega) 0 (by show (t.val - 1) % 2 = 0; omega),
    hid_point m c t p q ⟨t.val / 2, hb⟩ rfl 1 h1]

/-- An index of the array is in point t's block iff each coordinate is in the block's range. -/
theorem mem_blk (t : Fin cfg0.N) (i : S8x128x128.Idx) :
    i ∈ ((cfg0.win 6).blk t).view.set ↔ ∀ a : Fin 3, win0_6.index t a * S1x128x128.size a ≤ (i a).val
      ∧ (i a).val < win0_6.index t a * S1x128x128.size a + S1x128x128.size a := by
  show i ∈ ((View.whole main_v11).slice (win0_6.rect t)).set ↔ _
  rw [View.set_slice_whole, Rect.mem_set_unit]
  exact Iff.rfl

/-- Every index lies in the block of the point that ends its batch entry. -/
theorem cover (i : S8x128x128.Idx) : ∃ t : Fin cfg0.N, (cfg0.win 6).flush t = true ∧ i ∈ ((cfg0.win 6).blk t).view.set := by
  have hi0 : (i 0).val < 8 := (i 0).isLt
  have hi1 : (i 1).val < 128 := (i 1).isLt
  have hi2 : (i 2).val < 128 := (i 2).isLt
  have hN : cfg0.N = 16 := N_0
  let t : Fin cfg0.N := ⟨2 * (i 0).val + 1, by omega⟩
  obtain ⟨-, -, -, -, -, -, -, -, -, -, -, -, -, -, e0, e1, e2⟩ := idx_facts t
  have ht : t.val = 2 * (i 0).val + 1 := rfl
  refine ⟨t, (flush0_6 t).mpr (by omega), ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 128 ≤ (i 2).val ∧ (i 2).val < win0_6.index t (2 : Fin 3) * 128 + 128; omega

/-- So the call's result array ends at `result`. -/
theorem final : (dats m 0 c).arrAt 6 cfg0.N = result m c :=
  (dats m 0 c).arrAt_eq_of_cover 6 (result m c) (flushed_eq m c) (cover)

/-! ## The host line after the call, and the run -/

/-- The program's result: the call's result plus b2. -/
def out : Buf (Elt Ideal) ((c : Thread nD τ).loc main_v14) := fun i =>
  (fun a b : EReal => a + b) (result m c i) ((m ((c : Thread nD τ).loc main_arg5)) (ix1 (0 : Fin 1)))

/-- The lines after the call add the one entry of b2 to every entry of the call's result. -/
theorem tail_eq : Pipeline.afterTail₀ cfgs (dats m) 0 (V0 m) [hostOps1] c main_v14 = out m c := by
  unfold Pipeline.afterTail₀
  show StableHlo.after hostOps1 _ (Proc.devRef .tc main_v14) = _
  after_results
  have e1 : Pipeline.withArrays (cfgs 0).spec c (V0 m c) (fun w => (dats m 0 c).arrAt w (cfgs 0).N) (Proc.devRef .tc main_v11) = result m c :=
    (Pipeline.withArrays_arr spec0 launch0.win.arr_inj c _ _ 6).trans (final m c)
  have e2 : Pipeline.withArrays (cfgs 0).spec c (V0 m c) (fun w => (dats m 0 c).arrAt w (cfgs 0).N) (Proc.devRef .tc main_arg5) = (m ((c : Thread nD τ).loc main_arg5)) :=
    (Pipeline.withArrays_of_ne _ c (V0 m c) _ main_arg5 (by exact (by decide : ∀ w, Pipeline.arrRef spec0 w ≠ main_arg5))).trans
      (V_main_arg5 m c)
  rw [e1, e2]
  funext i
  show (fun a b : EReal => a + b) (result m c i) _ = (fun a b : EReal => a + b) (result m c i) _
  refine congrArg ((fun a b : EReal => a + b) (result m c i)) ?_
  rw [broadcastInDim_scalar_apply]
  exact shapeCast_apply (m ((c : Thread nD τ).loc main_arg5)) shapeCasts_S1_S_ ix0 (ix1 (0 : Fin 1)) (by show (S1.rowMajor (ix1 (0 : Fin 1))).val = (S_.rowMajor ix0).val; rw [Shape.rowMajor_val_one]; rfl)

/-- The run, read: the result at `out`, the arguments unchanged. -/
theorem run : θ_run defs (onTc (τ := τ) (main (F := Ideal))) ⟨m, fun _ => 0, ρ⟩ (fun r => ∀ c : Dev nD,
      r.2.mem ((c.tc : Thread nD τ).loc main_v14) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Accum

end
-- ==== Proof.lean ====
/-
  A pairwise affinity head: for every batch entry b, query row p and key row q,
      out(b, p, q) = ∑ h < 1024, max (x(b, p)·W1ˣ(h) + y(b, q)·W1ʸ(h) + b1(h)) 0 · W2(h) + b2.

  The kernel walks a grid of 8 batch entries × 2 tiles of 512 hidden units. At a point it projects its query and key
  blocks through the tile's columns of W1, folds the bias into the query projection, forms the rectified pairwise sums
  32 key rows at a time, contracts each stretch with the tile's part of W2 and adds it into a 128 × 128 accumulator that
  is zeroed at the first tile and written back after the second; b2 is added by the host afterwards. The reference
  forms all 1024 hidden units at once and adds the bias after summing the two projections.

  Over the extended reals every change of float format is the identity and addition is associative and commutative,
  so the two programs compute the same number at every index, whatever the inputs: the bias may be added to either
  projection first (Spec.term_eq), and the sum over 1024 hidden units is the sum of its two halves
  (Spec.tiles_eq_total). No finiteness of the inputs is used.

  Modules: Spec (the function and the law), Body (one point's arithmetic at an index), Pieces (what a point leaves in
  the accumulator and the output block), Blocks (a point's blocks as entries of the arguments), Accum (the result
  array, the host line after the call, the run), RefSide (the reference at an index).
-/
import proofs.«122719_j51118700757140_2_alg».proof.Defs
import proofs.«122719_j51118700757140_2_alg».proof.Proof.Gen.Kernel
import proofs.«122719_j51118700757140_2_alg».proof.Proof.Gen.Kernel.Skeleton
import proofs.«122719_j51118700757140_2_alg».proof.Proof.Gen.Kernel.Launch
import proofs.«122719_j51118700757140_2_alg».proof.Proof.Gen.Kernel.Points
import proofs.«122719_j51118700757140_2_alg».proof.Proof.Gen.Kernel.Frame
import proofs.«122719_j51118700757140_2_alg».proof.Proof.Gen.KernelIdeal
import proofs.«122719_j51118700757140_2_alg».proof.Proof.Gen.KernelIdeal.Skeleton
import proofs.«122719_j51118700757140_2_alg».proof.Proof.Gen.KernelIdeal.Launch
import proofs.«122719_j51118700757140_2_alg».proof.Proof.Gen.KernelIdeal.Points
import proofs.«122719_j51118700757140_2_alg».proof.Proof.Gen.KernelIdeal.Frame
import proofs.«122719_j51118700757140_2_alg».proof.Proof.Gen.ReferenceIdeal
import proofs.«122719_j51118700757140_2_alg».proof.Proof.Gen.Pre_finite_inputs
import proofs.«122719_j51118700757140_2_alg».proof.Proof.RefSide
import proofs.«122719_j51118700757140_2_alg».proof.Proof.Accum
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the same array: at (b, p, q) the kernel's two accumulated tiles plus b2 against the reference's
    one sum over all hidden units plus b2. -/
theorem algebraic : Cert.algebraic_KernelIdeal_ReferenceIdeal := by
  intro m ρ m' ρ' _ hagree
  refine ⟨fun c => Cert.KernelIdeal.Accum.out m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2.1,
    (hagree c).2.2.2.2.1, (hagree c).2.2.2.2.2]
  funext i
  obtain ⟨b, p, q, rfl⟩ : ∃ (b : Fin 8) (p q : Fin 128), i = ix3 b p q := ⟨i 0, i 1, i 2, eq_ix3 i⟩
  rw [Cert.ReferenceIdeal.RefValue.result_apply]
  show _ = (Cert.Spec.tile (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) b p q 0 + Cert.Spec.tile (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) b p q 1)
        + (m ((c.tc : Thread Cert.KernelIdeal.nD Cert.KernelIdeal.τ).loc Cert.KernelIdeal.main_arg5)) (ix1 (0 : Fin 1))
  rw [← Cert.Spec.tiles_eq_total, zero_add]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
